-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x1024 : Shape := ⟨2, ![1024, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x512 .f32) (main_arg1 : FVec F S4x64x512 .f32) (main_arg2 : FVec F S1024x1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x256x512 : Shape := ⟨3, ![4, 256, 512]⟩
abbrev S4x64x512 : Shape := ⟨3, ![4, 64, 512]⟩
abbrev S1024x1024 : Shape := ⟨2, ![1024, 1024]⟩
abbrev S1024x512 : Shape := ⟨2, ![1024, 512]⟩
abbrev S512x1024 : Shape := ⟨2, ![512, 1024]⟩
abbrev S4x256x64x1024 : Shape := ⟨4, ![4, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S64x1024 : Shape := ⟨2, ![64, 1024]⟩
abbrev S64x512 : Shape := ⟨2, ![64, 512]⟩
abbrev S32x512 : Shape := ⟨2, ![32, 512]⟩
abbrev S32x1024 : Shape := ⟨2, ![32, 1024]⟩
abbrev S32x1x1024 : Shape := ⟨3, ![32, 1, 1024]⟩
abbrev S1x64x1024 : Shape := ⟨3, ![1, 64, 1024]⟩
abbrev S32x64x1024 : Shape := ⟨3, ![32, 64, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S512x1024, .f32⟩
  | .hbm, ⟨6, _⟩ => ⟨S512x1024, .f32⟩
  | .hbm, ⟨7, _⟩ => ⟨S4x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .f32⟩
  | .local _ .vmem, ⟨5, _⟩ => ⟨S512x1024, .f32⟩
  | .local _ .vmem, ⟨6, _⟩ => ⟨S1x32x64x1024, .f32⟩
  | .local _ .vmem, ⟨7, _⟩ => ⟨S1x32x64x1024, .f32⟩
  | .local _ .vmem, ⟨8, _⟩ => ⟨S64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S64x512_S512x1024_S64x1024_1_0_0_1_n_n_wf : DotDims.WF S64x512 S512x1024 S64x1024 [1] [0] [0] [1] [] []
  dot_S32x512_S512x1024_S32x1024_1_0_0_1_n_n_wf : DotDims.WF S32x512 S512x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S4x256x64x1024.size a
  hwx0_4 : ∀ i : grid0.Coords, EltTy.bits .f32 = 32 ∨ (Rect.block (s := S4x256x64x1024) S1x32x64x1024.size (cc0_transform_4 i) (hinb0_4 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x1024 : Shape := ⟨2, ![1024, 1024]⟩
abbrev S1024x512 : Shape := ⟨2, ![1024, 512]⟩
abbrev S4x256x1024 : Shape := ⟨3, ![4, 256, 1024]⟩
abbrev S4x64x1024 : Shape := ⟨3, ![4, 64, 1024]⟩
abbrev S4x256x1x1024 : Shape := ⟨4, ![4, 256, 1, 1024]⟩
abbrev S4x1x64x1024 : Shape := ⟨4, ![4, 1, 64, 1024]⟩
abbrev S4x256x64x1024 : Shape := ⟨4, ![4, 256, 64, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x256x1024, .f32⟩
  | .hbm, ⟨6, _⟩ => ⟨S4x64x1024, .f32⟩
  | .hbm, ⟨7, _⟩ => ⟨S4x256x1x1024, .f32⟩
  | .hbm, ⟨8, _⟩ => ⟨S4x1x64x1024, .f32⟩
  | .hbm, ⟨9, _⟩ => ⟨S4x256x64x1024, .f32⟩
  | .hbm, ⟨10, _⟩ => ⟨S4x256x64x1024, .f32⟩
  | .hbm, ⟨11, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x64x1024_S4x1x64x1024_0_2_3 : S4x64x1024.BroadcastsInDim S4x1x64x1024 (![0, 2, 3] : Fin 3 → Fin S4x1x64x1024.rank)
  bcast_S4x256x1x1024_S4x256x64x1024_0_1_2_3 : S4x256x1x1024.BroadcastsInDim S4x256x64x1024 (![0, 1, 2, 3] : Fin 4 → Fin S4x256x64x1024.rank)
  bcast_S4x1x64x1024_S4x256x64x1024_0_1_2_3 : S4x1x64x1024.BroadcastsInDim S4x256x64x1024 (![0, 1, 2, 3] : Fin 4 → Fin S4x256x64x1024.rank)
  dot_S4x256x512_S1024x512_S4x256x1024_2_1_01_0_n_n_wf : DotDims.WF S4x256x512 S1024x512 S4x256x1024 [2] [1] [0, 1] [0] [] []
  dot_S4x64x512_S1024x512_S4x64x1024_2_1_01_0_n_n_wf : DotDims.WF S4x64x512 S1024x512 S4x64x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x64x512_S1024x512_S4x64x1024_2_1_01_0_n_n : DotDims S4x64x512 S1024x512 S4x64x1024 where
  lhsContracting := [2]
  rhsContracting := [1]
  lhsNonContracting := [0, 1]
  rhsNonContracting := [0]
  lhsBatch := []
  rhsBatch := []
  wf := dot_S4x64x512_S1024x512_S4x64x1024_2_1_01_0_n_n_wf

class Facts : Prop extends Facts₀ where

variable [Facts]
-- ==== Proof.Spec.lean ====
/-
  The function both programs compute, index by index, on the extended reals.

  For encoder states `e : [4, 256, 512]`, decoder states `d : [4, 64, 512]` and a weight `w : [1024, 1024]`
  whose row `c` is the concatenation of an encoder half (columns 0..511) and a decoder half (columns 512..1023),
  the joint network's entry at `(b, t, u, c)` is

      (∑ k < 512, e[b, t, k] · w[c, k])  +  (∑ k < 512, d[b, u, k] · w[c, 512 + k]).

  The first sum depends on `(b, t, c)` only, the second on `(b, u, c)` only: the result is a broadcast sum of two
  projections.  Nothing here needs the entries to be finite: both programs form the same two sums over the same
  index set and add them once, so the only laws used are re-indexings of a finite sum.
-/
import Idealize.ShloMosaic.PureOps.Ideal
import Idealize.ShloMosaic.Lib.ValueIdx

noncomputable section

namespace Cert.Joint

open Idealize.ShloMosaic Idealize.ShloMosaic.ValueIdx

/-- Column `k` of the encoder half of a weight row. -/
abbrev lo (k : Fin 512) : Fin 1024 := ⟨k.val, by have := k.isLt; omega⟩

/-- Column `k` of the decoder half of a weight row: column `512 + k` of the row. -/
abbrev hi (k : Fin 512) : Fin 1024 := ⟨512 + k.val, by have := k.isLt; omega⟩

/-- The encoder projection: row `(b, t)` of the encoder states against the encoder half of weight row `c`. -/
def encProj (e : (⟨3, ![4, 256, 512]⟩ : Shape).Idx → EReal) (w : (⟨2, ![1024, 1024]⟩ : Shape).Idx → EReal)
    (b : Fin 4) (t : Fin 256) (c : Fin 1024) : EReal :=
  ∑ k : Fin 512, e (ix3 b t k) * w (ix2 c (lo k))

/-- The decoder projection: row `(b, u)` of the decoder states against the decoder half of weight row `c`. -/
def decProj (d : (⟨3, ![4, 64, 512]⟩ : Shape).Idx → EReal) (w : (⟨2, ![1024, 1024]⟩ : Shape).Idx → EReal)
    (b : Fin 4) (u : Fin 64) (c : Fin 1024) : EReal :=
  ∑ k : Fin 512, d (ix3 b u k) * w (ix2 c (hi k))

/-- The joint network's output: at `(b, t, u, c)` the encoder projection at `(b, t, c)` plus the decoder
    projection at `(b, u, c)`. -/
def joint (e : (⟨3, ![4, 256, 512]⟩ : Shape).Idx → EReal) (d : (⟨3, ![4, 64, 512]⟩ : Shape).Idx → EReal)
    (w : (⟨2, ![1024, 1024]⟩ : Shape).Idx → EReal) : (⟨4, ![4, 256, 64, 1024]⟩ : Shape).Idx → EReal :=
  fun i => encProj e w (i 0) (i 1) (i 3) + decProj d w (i 0) (i 2) (i 3)

theorem joint_apply (e : (⟨3, ![4, 256, 512]⟩ : Shape).Idx → EReal) (d : (⟨3, ![4, 64, 512]⟩ : Shape).Idx → EReal)
    (w : (⟨2, ![1024, 1024]⟩ : Shape).Idx → EReal) (b : Fin 4) (t : Fin 256) (u : Fin 64) (c : Fin 1024) :
    joint e d w (ix4 b t u c) = encProj e w b t c + decProj d w b u c := rfl

end Cert.Joint

end
-- ==== Proof.RefJoint.lean ====
/-
  The reference computes the joint network's function.

  Its result is the sum of two broadcasts.  The first broadcast spreads, over the decoder axis, the contraction of
  the encoder states with the slice of the weight made of its columns 0..511; the second spreads, over the encoder
  time axis, the contraction of the decoder states with the slice made of columns 512..1023.  Read at an index
  `(b, t, u, c)`, each broadcast forgets the coordinate it spreads over, each contraction is a sum over `k < 512`,
  and each slice reads the weight at `(c, k)` and `(c, 512 + k)`: the two sums of the specification.
-/
import proofs.«103613_j69810398429358_2_alg».proof.Proof.Gen.ReferenceIdeal.Read
import proofs.«103613_j69810398429358_2_alg».proof.Proof.Spec

noncomputable section

namespace Cert.ReferenceIdeal.RefJoint

open Cert.ReferenceIdeal Cert.ReferenceIdeal.Gen Cert.ReferenceIdeal.Read Cert.Joint
open Idealize.ShloMosaic Idealize.ShloMosaic.ValueIdx

/-- The encoder-side operand indices, through the two broadcasts and the slice, are `(b, t, k)` and `(c, k)`. -/
theorem enc_lhs (b : Fin 4) (t : Fin 256) (u : Fin 64) (c : Fin 1024) (k : Fin 512) :
    lidx_main_v2 (idx_main_v4 (idx_main_v6 (ix4 b t u c))) k = ix3 b t k :=
  funext fun a => Fin.ext (by match a with | ⟨0, _⟩ => rfl | ⟨1, _⟩ => rfl | ⟨2, _⟩ => rfl)

theorem enc_rhs (b : Fin 4) (t : Fin 256) (u : Fin 64) (c : Fin 1024) (k : Fin 512) :
    idx_main_v0 (ridx_main_v2 (idx_main_v4 (idx_main_v6 (ix4 b t u c))) k) = ix2 c (lo k) :=
  funext fun a => Fin.ext (by match a with | ⟨0, _⟩ => rfl | ⟨1, _⟩ => rfl)

/-- The decoder-side operand indices are `(b, u, k)` and `(c, 512 + k)`. -/
theorem dec_lhs (b : Fin 4) (t : Fin 256) (u : Fin 64) (c : Fin 1024) (k : Fin 512) :
    lidx_main_v3 (idx_main_v5 (idx_main_v7 (ix4 b t u c))) k = ix3 b u k :=
  funext fun a => Fin.ext (by match a with | ⟨0, _⟩ => rfl | ⟨1, _⟩ => rfl | ⟨2, _⟩ => rfl)

theorem dec_rhs (b : Fin 4) (t : Fin 256) (u : Fin 64) (c : Fin 1024) (k : Fin 512) :
    idx_main_v1 (ridx_main_v3 (idx_main_v5 (idx_main_v7 (ix4 b t u c))) k) = ix2 c (hi k) :=
  funext fun a => Fin.ext (by match a with | ⟨0, _⟩ => rfl | ⟨1, _⟩ => rfl)

/-- The reference's result, as a function of its three arguments, is the joint network's function. -/
theorem ref_eq_joint (x0 : FVec Ideal S4x256x512 .f32) (x1 : FVec Ideal S4x64x512 .f32) (x2 : FVec Ideal S1024x1024 .f32) :
    val_main_v8 (F := Ideal) x0 x1 x2 = joint x0 x1 x2 := by
  funext i
  obtain ⟨b, t, u, c, rfl⟩ : ∃ (b : Fin 4) (t : Fin 256) (u : Fin 64) (c : Fin 1024), i = ix4 b t u c :=
    ⟨i 0, i 1, i 2, i 3, eq_ix4 i⟩
  rw [joint_apply, val_main_v8_apply, val_main_v6_apply, val_main_v4_apply, val_main_v2_apply,
    val_main_v7_apply, val_main_v5_apply, val_main_v3_apply]
  simp only [val_main_v0_apply, val_main_v1_apply, enc_lhs, enc_rhs, dec_lhs, dec_rhs]
  rfl

end Cert.ReferenceIdeal.RefJoint

end
-- ==== Proof.Pieces.lean ====
/-
  What one run of the kernel body leaves behind, as values of the blocks it was given.

  At the first time tile of a batch entry the body stores the decoder projection of the decoder block into the
  buffer it keeps between grid points, reads it back, and stores into the output block the broadcast sum of the
  encoder projection of the encoder block and that decoder projection.  At every other time tile it stores nothing
  into the kept buffer and forms the same broadcast sum with whatever the buffer already holds.  Each buffer is
  written by one store that covers it whole and each block is read whole, so what a buffer ends holding is the
  stored value itself, as a function of the blocks.  These equations hold for any interpretation of the floats.
-/
import proofs.«103613_j69810398429358_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- First time tile: the kept buffer ends at the decoder projection of the decoder block `x1` against the
    transposed decoder half `x3`. -/
theorem kept_first (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x32x64x1024 .f32) (harg6 : arg6.IsWhole) (arg7 : Memref sig .tc .vmem S64x1024 .f32) (harg7 : arg7.IsWhole) (hc0 : cond0_0 i)
    (x0 : Vec F S1x32x512 .f32) (x1 : Vec F S1x64x512 .f32) (x2 : Vec F S512x1024 .f32) (x3 : Vec F S512x1024 .f32) :
    sout0_A_0 c i arg2 harg2 arg3 harg3 arg4 harg4 arg5 harg5 arg6 harg6 arg7 harg7 hc0 x0 x1 x2 x3 = k0_pay1 x1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S64x1024) zero2]
  simp only [View.readAt_eq_ld, harg3.read_unread, harg5.read_unread, View.ld_unit_zero (S := S1x64x512) zero3,
    View.ld_unit_zero (S := S512x1024) zero2]

/-- First time tile: the output block ends at the broadcast sum of the encoder projection of `x0` against `x2`
    and the decoder projection just stored (read back through the store that wrote it). -/
theorem out_first (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x32x64x1024 .f32) (harg6 : arg6.IsWhole) (arg7 : Memref sig .tc .vmem S64x1024 .f32) (harg7 : arg7.IsWhole) (hc0 : cond0_0 i)
    (x0 : Vec F S1x32x512 .f32) (x1 : Vec F S1x64x512 .f32) (x2 : Vec F S512x1024 .f32) (x3 : Vec F S512x1024 .f32) :
    out0_A_4 c i arg2 harg2 arg3 harg3 arg4 harg4 arg5 harg5 arg6 harg6 arg7 harg7 hc0 x0 x1 x2 x3 = k0_pay2 x0 x2 (k0_pay1 x1 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1x32x64x1024) zero4, View.readCov_unit_zero (S := S64x1024) _ zero2]
  simp only [View.readAt_eq_ld, harg2.read_unread, harg3.read_unread, harg4.read_unread, harg5.read_unread,
    View.ld_unit_zero (S := S1x32x512) zero3, View.ld_unit_zero (S := S1x64x512) zero3,
    View.ld_unit_zero (S := S512x1024) zero2]

/-- Any other time tile: the output block ends at the broadcast sum of the encoder projection of `x0` against
    `x2` and what the kept buffer held, `xs0`. -/
theorem out_later (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x32x64x1024 .f32) (harg6 : arg6.IsWhole) (arg7 : Memref sig .tc .vmem S64x1024 .f32) (harg7 : arg7.IsWhole) (hc0 : ¬cond0_0 i)
    (x0 : Vec F S1x32x512 .f32) (x1 : Vec F S1x64x512 .f32) (x2 : Vec F S512x1024 .f32) (x3 : Vec F S512x1024 .f32)
    (xs0 : Vec F S64x1024 .f32) :
    out0_B_4 c i arg2 harg2 arg3 harg3 arg4 harg4 arg5 harg5 arg6 harg6 arg7 harg7 hc0 x0 x1 x2 x3 xs0 = k0_pay2 x0 x2 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1x32x64x1024) zero4]
  simp only [View.readAt_eq_ld, harg2.read_unread, harg4.read_unread, harg7.read_unread,
    View.ld_unit_zero (S := S1x32x512) zero3, View.ld_unit_zero (S := S512x1024) zero2,
    View.ld_unit_zero (S := S64x1024) zero2]

end Cert.KernelIdeal.Pieces

end
-- ==== Proof.Payload.lean ====
/-
  The kernel body's two stored values, read at an index, on the extended reals.

  The body forms two products.  The decoder projection of one batch entry, a `[64, 512]` block of decoder
  states against the `[512, 1024]` transposed decoder half of the weight, is stored into a buffer the kernel
  keeps between grid points.  The encoder projection of a `[32, 512]` block of encoder rows against the
  transposed encoder half is broadcast along a new middle axis of length 64, the kept decoder projection is
  broadcast along a new leading axis of length 32, and their sum is stored into the output block.  A rounding
  of an operand to a narrower format is the identity on the extended reals, and a product accumulated into a
  zero block is the plain sum over the contracted axis, so at `(r, u, c)` the stored value is

      (∑ k < 512, rows[r, k] · encHalf[k, c])  +  kept[u, c].
-/
import proofs.«103613_j69810398429358_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Three layout operations read at an index -/

variable {α : Type}

/-- An `[a, c]` array given a unit middle axis reads, at `(p, z, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (r : Fin c) :
    shapeCast ⟨3, ![a, 1, c]⟩ x h (ix3 p z r) = x (ix2 p r) :=
  shapeCast_apply x h _ _ (by
    have hz : z.val = 0 := by omega
    rw [Shape.rowMajor_val_three, Shape.rowMajor_val_two]
    show p.val * c + r.val = (p.val * 1 + z.val) * c + r.val
    rw [hz, Nat.mul_one, Nat.add_zero])

/-- An `[a, 1, c]` array spread over a middle axis of length `b` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array spread over a leading axis of length `a` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-! ## The two products: rows times columns, summed over the contracted axis -/

theorem dot64_lhs_0 (j : S64x1024.Idx) (q : dot_S64x512_S512x1024_S64x1024_1_0_0_1_n_n.contr.Idx) :
    (dot_S64x512_S512x1024_S64x1024_1_0_0_1_n_n.lhsIdx j q 0).val = (j 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem dot64_lhs_1 (j : S64x1024.Idx) (q : dot_S64x512_S512x1024_S64x1024_1_0_0_1_n_n.contr.Idx) :
    (dot_S64x512_S512x1024_S64x1024_1_0_0_1_n_n.lhsIdx j q 1).val = (q ⟨0, by decide⟩).val :=
  dot_S64x512_S512x1024_S64x1024_1_0_0_1_n_n.lhsIdx_val_of_single rfl j q
theorem dot64_rhs_0 (j : S64x1024.Idx) (q : dot_S64x512_S512x1024_S64x1024_1_0_0_1_n_n.contr.Idx) :
    (dot_S64x512_S512x1024_S64x1024_1_0_0_1_n_n.rhsIdx j q 0).val = (q ⟨0, by decide⟩).val :=
  dot_S64x512_S512x1024_S64x1024_1_0_0_1_n_n.rhsIdx_val_of_single rfl j q
theorem dot64_rhs_1 (j : S64x1024.Idx) (q : dot_S64x512_S512x1024_S64x1024_1_0_0_1_n_n.contr.Idx) :
    (dot_S64x512_S512x1024_S64x1024_1_0_0_1_n_n.rhsIdx j q 1).val = (j 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

/-- The `[64, 512] × [512, 1024]` product into a zero block: entry `(u, c)` is `∑ k, l[u, k] · r[k, c]`. -/
theorem matmul64_apply (l : FVec Ideal S64x512 .bf16) (r : FVec Ideal S512x1024 .bf16) (u : Fin 64) (c : Fin 1024) :
    matmul dot_S64x512_S512x1024_S64x1024_1_0_0_1_n_n none l r (constant (F := Ideal) S64x1024 .f32 0x00000000#32) (ix2 u c)
      = ∑ k : Fin 512, l (ix2 u k) * r (ix2 k c) := by
  simp only [matmul]
  rw [Ideal.matmul_constant_zero_apply, ← Equiv.sum_comp (contrEquiv1 dot_S64x512_S512x1024_S64x1024_1_0_0_1_n_n 512 rfl rfl).symm]
  refine Finset.sum_congr rfl fun k _ => ?_
  have hk := contrEquiv1_symm_val dot_S64x512_S512x1024_S64x1024_1_0_0_1_n_n 512 rfl rfl k
  have el : dot_S64x512_S512x1024_S64x1024_1_0_0_1_n_n.lhsIdx (ix2 u c) ((contrEquiv1 dot_S64x512_S512x1024_S64x1024_1_0_0_1_n_n 512 rfl rfl).symm k) = ix2 u k := funext fun a => Fin.ext (by
    match a with
    | ⟨0, _⟩ => exact dot64_lhs_0 _ _
    | ⟨1, _⟩ => exact (dot64_lhs_1 _ _).trans hk)
  have er : dot_S64x512_S512x1024_S64x1024_1_0_0_1_n_n.rhsIdx (ix2 u c) ((contrEquiv1 dot_S64x512_S512x1024_S64x1024_1_0_0_1_n_n 512 rfl rfl).symm k) = ix2 k c := funext fun a => Fin.ext (by
    match a with
    | ⟨0, _⟩ => exact (dot64_rhs_0 _ _).trans hk
    | ⟨1, _⟩ => exact dot64_rhs_1 _ _)
  rw [el, er]

theorem dot32_lhs_0 (j : S32x1024.Idx) (q : dot_S32x512_S512x1024_S32x1024_1_0_0_1_n_n.contr.Idx) :
    (dot_S32x512_S512x1024_S32x1024_1_0_0_1_n_n.lhsIdx j q 0).val = (j 0).val := by
  unfold DotDims.lhsIdx
  rw [dif_neg (show ¬(0 : Fin S32x512.rank) ∈ dot_S32x512_S512x1024_S32x1024_1_0_0_1_n_n.lhsBatch by decide), dif_pos (show (0 : Fin S32x512.rank) ∈ dot_S32x512_S512x1024_S32x1024_1_0_0_1_n_n.lhsNonContracting by decide)]
  rfl
theorem dot32_lhs_1 (j : S32x1024.Idx) (q : dot_S32x512_S512x1024_S32x1024_1_0_0_1_n_n.contr.Idx) :
    (dot_S32x512_S512x1024_S32x1024_1_0_0_1_n_n.lhsIdx j q 1).val = (q ⟨0, by decide⟩).val :=
  dot_S32x512_S512x1024_S32x1024_1_0_0_1_n_n.lhsIdx_val_of_single rfl j q
theorem dot32_rhs_0 (j : S32x1024.Idx) (q : dot_S32x512_S512x1024_S32x1024_1_0_0_1_n_n.contr.Idx) :
    (dot_S32x512_S512x1024_S32x1024_1_0_0_1_n_n.rhsIdx j q 0).val = (q ⟨0, by decide⟩).val :=
  dot_S32x512_S512x1024_S32x1024_1_0_0_1_n_n.rhsIdx_val_of_single rfl j q
theorem dot32_rhs_1 (j : S32x1024.Idx) (q : dot_S32x512_S512x1024_S32x1024_1_0_0_1_n_n.contr.Idx) :
    (dot_S32x512_S512x1024_S32x1024_1_0_0_1_n_n.rhsIdx j q 1).val = (j 1).val := by
  unfold DotDims.rhsIdx
  rw [dif_neg (show ¬(1 : Fin S512x1024.rank) ∈ dot_S32x512_S512x1024_S32x1024_1_0_0_1_n_n.rhsBatch by decide), dif_pos (show (1 : Fin S512x1024.rank) ∈ dot_S32x512_S512x1024_S32x1024_1_0_0_1_n_n.rhsNonContracting by decide)]
  rfl

/-- The `[32, 512] × [512, 1024]` product into a zero block: entry `(p, c)` is `∑ k, l[p, k] · r[k, c]`. -/
theorem matmul32_apply (l : FVec Ideal S32x512 .bf16) (r : FVec Ideal S512x1024 .bf16) (p : Fin 32) (c : Fin 1024) :
    matmul dot_S32x512_S512x1024_S32x1024_1_0_0_1_n_n none l r (constant (F := Ideal) S32x1024 .f32 0x00000000#32) (ix2 p c)
      = ∑ k : Fin 512, l (ix2 p k) * r (ix2 k c) := by
  simp only [matmul]
  rw [Ideal.matmul_constant_zero_apply, ← Equiv.sum_comp (contrEquiv1 dot_S32x512_S512x1024_S32x1024_1_0_0_1_n_n 512 rfl rfl).symm]
  refine Finset.sum_congr rfl fun k _ => ?_
  have hk := contrEquiv1_symm_val dot_S32x512_S512x1024_S32x1024_1_0_0_1_n_n 512 rfl rfl k
  have el : dot_S32x512_S512x1024_S32x1024_1_0_0_1_n_n.lhsIdx (ix2 p c) ((contrEquiv1 dot_S32x512_S512x1024_S32x1024_1_0_0_1_n_n 512 rfl rfl).symm k) = ix2 p k := funext fun a => Fin.ext (by
    match a with
    | ⟨0, _⟩ => exact dot32_lhs_0 _ _
    | ⟨1, _⟩ => exact (dot32_lhs_1 _ _).trans hk)
  have er : dot_S32x512_S512x1024_S32x1024_1_0_0_1_n_n.rhsIdx (ix2 p c) ((contrEquiv1 dot_S32x512_S512x1024_S32x1024_1_0_0_1_n_n 512 rfl rfl).symm k) = ix2 k c := funext fun a => Fin.ext (by
    match a with
    | ⟨0, _⟩ => exact (dot32_rhs_0 _ _).trans hk
    | ⟨1, _⟩ => exact dot32_rhs_1 _ _)
  rw [el, er]

/-! ## The two stored values -/

/-- The value kept between grid points: at `(u, c)`, the decoder block's row `u` against column `c` of the
    transposed decoder half. -/
theorem pay1_apply (x1 : Vec Ideal S1x64x512 .f32) (x3 : Vec Ideal S512x1024 .f32) (u : Fin 64) (c : Fin 1024) :
    k0_pay1 (F := Ideal) x1 x3 (ix2 u c) = ∑ k : Fin 512, x1 (ix3 (0 : Fin 1) u k) * x3 (ix2 k c) := by
  unfold k0_pay1
  rw [shapeCast_self]
  refine (matmul64_apply _ _ u c).trans ?_
  refine Finset.sum_congr rfl fun k _ => ?_
  rw [truncf_apply, truncf_apply, shapeCast_self, shapeCast_1ab_ab_apply]

/-- The value stored into the output block: at `(r, u, c)`, the encoder block's row `r` against column `c` of the
    transposed encoder half, plus the kept value at `(u, c)`. -/
theorem pay2_apply (x0 : Vec Ideal S1x32x512 .f32) (x2 : Vec Ideal S512x1024 .f32) (s : Vec Ideal S64x1024 .f32)
    (z : Fin 1) (r : Fin 32) (u : Fin 64) (c : Fin 1024) :
    k0_pay2 (F := Ideal) x0 x2 s (ix4 z r u c)
      = (∑ k : Fin 512, x0 (ix3 (0 : Fin 1) r k) * x2 (ix2 k c)) + s (ix2 u c) := by
  unfold k0_pay2
  rw [shapeCast_abc_1abc_apply, addf_apply, broadcastTo_a1c_abc_apply, broadcastTo_1bc_abc_apply,
    shapeCast_ac_a1c_apply, shapeCast_ab_1ab_apply]
  refine congrArg (· + s (ix2 u c)) ?_
  refine (matmul32_apply _ _ r c).trans ?_
  refine Finset.sum_congr rfl fun k _ => ?_
  rw [truncf_apply, truncf_apply, shapeCast_self, shapeCast_1ab_ab_apply]

end Cert.KernelIdeal.Payload

end
-- ==== Proof.HostPrefix.lean ====
/-
  The two weight operands as the kernel's region finds them.

  Before the region the program cuts the weight `w : [1024, 1024]` into its column halves `w[:, 0:512]` and
  `w[:, 512:1024]` and transposes each, so that the region's two weight windows hold `[512, 1024]` arrays whose
  entry `(k, c)` is `w[c, k]` for the encoder half and `w[c, 512 + k]` for the decoder half.
-/
import proofs.«103613_j69810398429358_2_alg».proof.Proof.Gen.KernelIdeal.Frame.Runs
import proofs.«103613_j69810398429358_2_alg».proof.Proof.Spec
import Idealize.ShloMosaic.Lib.ValueLayout
import Idealize.ShloMosaic.Lib.StableHlo.Run

noncomputable section

namespace Cert.KernelIdeal.HostPrefix

open Cert.KernelIdeal Cert.KernelIdeal.Gen Cert.Joint
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The encoder-half operand is the transpose of the slice of the weight's columns 0..511. -/
theorem encHalf_eq (c : Dev nD) :
    (V m c main_v2 : (⟨S512x1024, .f32⟩ : BufTy).Contents (Elt F))
      = transpose S512x1024 [1, 0] (extractStridedSlice S1024x512 ![0, 0] (m ((c : Thread nD τ).loc main_arg2)) slices_S1024x1024_S1024x512_0_0) transposes_S1024x512_S512x1024_1_0 := by
  dsimp only [V, hostOps0]; after_results

/-- The decoder-half operand is the transpose of the slice of the weight's columns 512..1023. -/
theorem decHalf_eq (c : Dev nD) :
    (V m c main_v3 : (⟨S512x1024, .f32⟩ : BufTy).Contents (Elt F))
      = transpose S512x1024 [1, 0] (extractStridedSlice S1024x512 ![0, 512] (m ((c : Thread nD τ).loc main_arg2)) slices_S1024x1024_S1024x512_0_512) transposes_S1024x512_S512x1024_1_0 := by
  dsimp only [V, hostOps0]; after_results

/-- Entry `(k, c)` of the encoder-half operand is `w[c, k]`. -/
theorem encHalf_apply (c : Dev nD) (k : Fin 512) (cc : Fin 1024) :
    (V m c main_v2 : (⟨S512x1024, .f32⟩ : BufTy).Contents (Elt F)) (ix2 k cc)
      = (m ((c : Thread nD τ).loc main_arg2) : (⟨S1024x1024, .f32⟩ : BufTy).Contents (Elt F)) (ix2 cc (lo k)) := by
  refine (congrFun (encHalf_eq m c) (ix2 k cc)).trans ?_
  refine (transpose_ix2_apply _ _ k cc).trans ?_
  exact slice2_axis1_apply 0 _ _ cc k (lo k) (Nat.zero_add _).symm

/-- Entry `(k, c)` of the decoder-half operand is `w[c, 512 + k]`. -/
theorem decHalf_apply (c : Dev nD) (k : Fin 512) (cc : Fin 1024) :
    (V m c main_v3 : (⟨S512x1024, .f32⟩ : BufTy).Contents (Elt F)) (ix2 k cc)
      = (m ((c : Thread nD τ).loc main_arg2) : (⟨S1024x1024, .f32⟩ : BufTy).Contents (Elt F)) (ix2 cc (hi k)) := by
  refine (congrFun (decHalf_eq m c) (ix2 k cc)).trans ?_
  refine (transpose_ix2_apply _ _ k cc).trans ?_
  exact slice2_axis1_apply 512 _ _ cc k (hi k) rfl

end Cert.KernelIdeal.HostPrefix

end
-- ==== Proof.BlockReads.lean ====
/-
  Each operand block of a grid point, read back to the argument arrays.

  The 32 grid points are the pairs (batch entry `b < 4`, time tile `s < 8`), point `n` being `(n / 8, n % 8)`.
  At that point the encoder window holds rows `32·s .. 32·s + 31` of batch entry `b`, the decoder window holds all
  64 decoder rows of batch entry `b`, the two weight windows hold their whole arrays, and the output window is rows
  `32·s .. 32·s + 31` of batch entry `b` of the result.
-/
import proofs.«103613_j69810398429358_2_alg».proof.Proof.Gen.KernelIdeal.Frame
import proofs.«103613_j69810398429358_2_alg».proof.Proof.HostPrefix
import Idealize.ShloMosaic.Lib.Pipeline.Value

noncomputable section

namespace Cert.KernelIdeal.BlockReads

open Cert.KernelIdeal Cert.KernelIdeal.Gen Cert.Joint Cert.KernelIdeal.HostPrefix
open Idealize.ShloMosaic Idealize.ShloMosaic.TcCoe Idealize.SL.Sem Idealize.ShloMosaic.ValueIdx

variable {F : FTy → Type} [FloatOps F]
variable (m : (ℓ : Loc nD τ sig) → Buf (Elt F) ℓ)

theorem lt32 (t : Fin cfg0.N) : t.val < 32 := lt_of_lt_of_eq t.isLt (show cfg0.N = 32 from N_0)

/-- The batch entry a grid point works on. -/
def batchOf (t : Fin cfg0.N) : Fin 4 := ⟨t.val / 8, by have := lt32 t; omega⟩

/-- The encoder row (equally: the result's time row) that row `r` of a grid point's block is. -/
def rowOf (t : Fin cfg0.N) (r : Fin 32) : Fin 256 := ⟨32 * (t.val % 8) + r.val, by have := r.isLt; omega⟩

/-- The printed block-index maps, decided once over the 32 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val / 8 ∧ win0_4.index t (1 : Fin 4) = t.val % 8
    ∧ win0_4.index t (2 : Fin 4) = 0 ∧ win0_4.index t (3 : Fin 4) = 0 :=
  (by decide +kernel : ∀ t : Fin grid0.N, _)

/-- The encoder block at a point: row `r`, column `k` is `e[b, 32·s + r, k]`. -/
theorem encBlock_apply (c : Dev nD) (t : Fin cfg0.N) (z : Fin 1) (r : Fin 32) (k : Fin 512) :
    (iblk m c 0 t : Vec F S1x32x512 .f32) (ix3 z r k)
      = (m ((c : Thread nD τ).loc main_arg0) : (⟨S4x256x512, .f32⟩ : BufTy).Contents (Elt F)) (ix3 (batchOf t) (rowOf t r) k) := by
  obtain ⟨e0, e1, e2, -⟩ := idx_facts t
  show V m c main_arg0 (((cfg0.win 0).blk t).view.emb (ix3 z r k)) = _
  rw [V_main_arg0]
  congr 1
  funext a
  apply Fin.ext
  match a with
  | ⟨0, _⟩ => show win0_0.index t (0 : Fin 3) * 1 + 1 * z.val = t.val / 8; have := z.isLt; omega
  | ⟨1, _⟩ => show win0_0.index t (1 : Fin 3) * 32 + 1 * r.val = 32 * (t.val % 8) + r.val; omega
  | ⟨2, _⟩ => show win0_0.index t (2 : Fin 3) * 512 + 1 * k.val = k.val; omega

/-- The decoder block at a point: row `u`, column `k` is `d[b, u, k]`. -/
theorem decBlock_apply (c : Dev nD) (t : Fin cfg0.N) (z : Fin 1) (u : Fin 64) (k : Fin 512) :
    (iblk m c 1 t : Vec F S1x64x512 .f32) (ix3 z u k)
      = (m ((c : Thread nD τ).loc main_arg1) : (⟨S4x64x512, .f32⟩ : BufTy).Contents (Elt F)) (ix3 (batchOf t) u k) := by
  obtain ⟨-, -, -, e0, e1, e2, -⟩ := idx_facts t
  show V m c main_arg1 (((cfg0.win 1).blk t).view.emb (ix3 z u k)) = _
  rw [V_main_arg1]
  congr 1
  funext a
  apply Fin.ext
  match a with
  | ⟨0, _⟩ => show win0_1.index t (0 : Fin 3) * 1 + 1 * z.val = t.val / 8; have := z.isLt; omega
  | ⟨1, _⟩ => show win0_1.index t (1 : Fin 3) * 64 + 1 * u.val = u.val; omega
  | ⟨2, _⟩ => show win0_1.index t (2 : Fin 3) * 512 + 1 * k.val = k.val; omega

/-- The encoder-half weight block at any point: entry `(k, c)` is `w[c, k]`. -/
theorem encHalfBlock_apply (c : Dev nD) (t : Fin cfg0.N) (k : Fin 512) (cc : Fin 1024) :
    (iblk m c 2 t : Vec F S512x1024 .f32) (ix2 k cc)
      = (m ((c : Thread nD τ).loc main_arg2) : (⟨S1024x1024, .f32⟩ : BufTy).Contents (Elt F)) (ix2 cc (lo k)) := by
  obtain ⟨-, -, -, -, -, -, e0, e1, -⟩ := idx_facts t
  have he : ((cfg0.win 2).blk t).view.emb (ix2 k cc) = ix2 k cc := funext fun a => Fin.ext (by
    match a with
    | ⟨0, _⟩ => show win0_2.index t (0 : Fin 2) * 512 + 1 * k.val = k.val; omega
    | ⟨1, _⟩ => show win0_2.index t (1 : Fin 2) * 1024 + 1 * cc.val = cc.val; omega)
  show V m c main_v2 (((cfg0.win 2).blk t).view.emb (ix2 k cc)) = _
  rw [he]
  exact encHalf_apply m c k cc

/-- The decoder-half weight block at any point: entry `(k, c)` is `w[c, 512 + k]`. -/
theorem decHalfBlock_apply (c : Dev nD) (t : Fin cfg0.N) (k : Fin 512) (cc : Fin 1024) :
    (iblk m c 3 t : Vec F S512x1024 .f32) (ix2 k cc)
      = (m ((c : Thread nD τ).loc main_arg2) : (⟨S1024x1024, .f32⟩ : BufTy).Contents (Elt F)) (ix2 cc (hi k)) := by
  obtain ⟨-, -, -, -, -, -, -, -, e0, e1, -⟩ := idx_facts t
  have he : ((cfg0.win 3).blk t).view.emb (ix2 k cc) = ix2 k cc := funext fun a => Fin.ext (by
    match a with
    | ⟨0, _⟩ => show win0_3.index t (0 : Fin 2) * 512 + 1 * k.val = k.val; omega
    | ⟨1, _⟩ => show win0_3.index t (1 : Fin 2) * 1024 + 1 * cc.val = cc.val; omega)
  show V m c main_v3 (((cfg0.win 3).blk t).view.emb (ix2 k cc)) = _
  rw [he]
  exact decHalf_apply m c k cc

/-- Where an element of a point's output block sits in the result: `(b, 32·s + r, u, c)`. -/
theorem outBlock_emb (t : Fin cfg0.N) (z : Fin 1) (r : Fin 32) (u : Fin 64) (cc : Fin 1024) :
    ((cfg0.win 4).blk t).view.emb (ix4 z r u cc) = ix4 (batchOf t) (rowOf t r) u cc := by
  obtain ⟨-, -, -, -, -, -, -, -, -, -, e0, e1, e2, e3⟩ := idx_facts t
  funext a
  apply Fin.ext
  match a with
  | ⟨0, _⟩ => show win0_4.index t (0 : Fin 4) * 1 + 1 * z.val = t.val / 8; have := z.isLt; omega
  | ⟨1, _⟩ => show win0_4.index t (1 : Fin 4) * 32 + 1 * r.val = 32 * (t.val % 8) + r.val; omega
  | ⟨2, _⟩ => show win0_4.index t (2 : Fin 4) * 64 + 1 * u.val = u.val; omega
  | ⟨3, _⟩ => show win0_4.index t (3 : Fin 4) * 1024 + 1 * cc.val = cc.val; omega

end Cert.KernelIdeal.BlockReads

end
-- ==== Proof.Kept.lean ====
/-
  What the kernel keeps between grid points.

  The kernel computes the decoder projection of a batch entry once, at the entry's first time tile, into a buffer
  it keeps, and reuses it at the entry's seven later time tiles.  Grid point `n` works on batch entry `n / 8`,
  and the points of one entry are consecutive, so after every point the buffer holds the decoder projection of
  the entry that point works on: at a first tile because it was just computed from that entry's decoder block,
  at a later tile because the point before belongs to the same entry and nothing was stored since.
-/
import proofs.«103613_j69810398429358_2_alg».proof.Proof.Pieces
import proofs.«103613_j69810398429358_2_alg».proof.Proof.Payload
import proofs.«103613_j69810398429358_2_alg».proof.Proof.BlockReads

noncomputable section

namespace Cert.KernelIdeal.Kept

open Cert.KernelIdeal Cert.KernelIdeal.Gen Cert.Joint Cert.KernelIdeal.BlockReads
open Idealize.ShloMosaic Idealize.ShloMosaic.TcCoe Idealize.SL.Sem Idealize.ShloMosaic.ValueIdx

variable (m : (ℓ : Loc nD τ sig) → Buf (Elt Ideal) ℓ)

/-- The decoder projection computed from a point's decoder block and decoder-half weight block is the decoder
    projection of the point's batch entry. -/
theorem fresh_eq (c : Dev nD) (t : Fin cfg0.N) (u : Fin 64) (cc : Fin 1024) :
    k0_pay1 (F := Ideal) (iblk m c 1 t) (iblk m c 3 t) (ix2 u cc)
      = decProj (m ((c : Thread nD τ).loc main_arg1)) (m ((c : Thread nD τ).loc main_arg2)) (batchOf t) u cc := by
  refine (Payload.pay1_apply (iblk m c 1 t) (iblk m c 3 t) u cc).trans ?_
  unfold decProj
  refine Finset.sum_congr rfl fun k _ => ?_
  exact congrArg₂ (· * ·) (decBlock_apply m c t 0 u k) (decHalfBlock_apply m c t k cc)

/-- After grid point `n` the kept buffer holds the decoder projection of batch entry `n / 8`. -/
theorem kept_eq (c : Dev nD) : ∀ (n : ℕ) (h : n < cfg0.N) (u : Fin 64) (cc : Fin 1024),
    ((outsAt0 m c n h).2 : Vec Ideal S64x1024 .f32) (ix2 u cc)
      = decProj (m ((c : Thread nD τ).loc main_arg1)) (m ((c : Thread nD τ).loc main_arg2)) (batchOf ⟨n, h⟩) u cc
  | 0, h, u, cc => by
    rw [outsAt0_A m c ⟨0, h⟩ rfl]
    dsimp only
    rw [Pieces.kept_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)]
    exact fresh_eq m c ⟨0, h⟩ u cc
  | n + 1, h, u, cc => by
    have hN : n + 1 < 32 := lt_of_lt_of_eq h (show cfg0.N = 32 from N_0)
    by_cases h0 : (n + 1) % 8 = 0
    · rw [outsAt0_A m c ⟨n + 1, h⟩ h0]
      dsimp only
      rw [Pieces.kept_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)]
      exact fresh_eq m c ⟨n + 1, h⟩ u cc
    · rw [outsAt0_B m c ⟨n + 1, h⟩ h0]
      dsimp only
      unfold sout0_B_0
      have e : batchOf ⟨n + 1, h⟩ = batchOf ⟨n, Nat.lt_of_succ_lt h⟩ := Fin.ext (by
        show (n + 1) / 8 = n / 8
        omega)
      rw [e]
      exact kept_eq c n (Nat.lt_of_succ_lt h) u cc

end Cert.KernelIdeal.Kept

end
-- ==== Proof.Final.lean ====
/-
  From what each grid point writes back to the whole result array.

  Grid point `(b, s)` writes back the `[32, 64, 1024]` block of rows `32·s .. 32·s + 31` of batch entry `b`.  At
  `(r, u, c)` that block holds the encoder projection of encoder row `32·s + r` of entry `b` at `c`, plus the
  kept decoder projection of entry `b` at `(u, c)`: the joint network's value at `(b, 32·s + r, u, c)`.  The 32
  blocks tile the result — index `(b, t, u, c)` lies in the block of point `8·b + t / 32` — so the result array
  ends holding the joint network's function of the three arguments.
-/
import proofs.«103613_j69810398429358_2_alg».proof.Proof.Gen.KernelIdeal.Value
import proofs.«103613_j69810398429358_2_alg».proof.Proof.Kept

noncomputable section

namespace Cert.KernelIdeal.Final

open Cert.KernelIdeal Cert.KernelIdeal.Gen Cert.KernelIdeal.Value Cert.Joint Cert.KernelIdeal.BlockReads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array's contents after the run: the joint network's function of the three argument arrays. -/
abbrev result (c : Dev nD) : Buf (Elt Ideal) ((c : Thread nD τ).loc main_v4) :=
  joint (m ((c : Thread nD τ).loc main_arg0)) (m ((c : Thread nD τ).loc main_arg1)) (m ((c : Thread nD τ).loc main_arg2))

/-- The encoder term of a point's block: if `x0` holds the encoder rows of the point's tile and `x2` the
    transposed encoder half of the weight, then row `r` of `x0` against column `c` of `x2` is the encoder
    projection at `(b, 32·s + r, c)`. -/
theorem encTerm_eq (c : Dev nD) (t : Fin cfg0.N) (r : Fin 32) (cc : Fin 1024)
    (x0 : Vec Ideal S1x32x512 .f32) (x2 : Vec Ideal S512x1024 .f32)
    (h0 : ∀ k : Fin 512, x0 (ix3 (0 : Fin 1) r k) = (m ((c : Thread nD τ).loc main_arg0)) (ix3 (batchOf t) (rowOf t r) k))
    (h2 : ∀ k : Fin 512, x2 (ix2 k cc) = (m ((c : Thread nD τ).loc main_arg2)) (ix2 cc (lo k))) :
    (∑ k : Fin 512, x0 (ix3 (0 : Fin 1) r k) * x2 (ix2 k cc))
      = encProj (m ((c : Thread nD τ).loc main_arg0)) (m ((c : Thread nD τ).loc main_arg2)) (batchOf t) (rowOf t r) cc := by
  unfold encProj
  exact Finset.sum_congr rfl fun k _ => congrArg₂ (· * ·) (h0 k) (h2 k)

/-- What a point writes back is its block of the joint network's function. -/
theorem flushed_eq (c : Dev nD) (t : Fin cfg0.N) :
    (dats m 0 c).flushed 4 t = ((cfg0.win 4).blk t).view.read (Elt Ideal) (result m c) := by
  have hN : t.val < 32 := lt32 t
  by_cases h0 : t.val % 8 = 0
  · rw [flushed4_A m c t h0, Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk m c 0 t) (iblk m c 1 t) (iblk m c 2 t) (iblk m c 3 t)]
    refine funext fun (y : S1x32x64x1024.Idx) => ?_
    obtain ⟨z, r, u, cc, rfl⟩ : ∃ (z : Fin 1) (r : Fin 32) (u : Fin 64) (cc : Fin 1024), y = ix4 z r u cc :=
      ⟨y 0, y 1, y 2, y 3, eq_ix4 y⟩
    show k0_pay2 (F := Ideal) (iblk m c 0 t) (iblk m c 2 t) (k0_pay1 (iblk m c 1 t) (iblk m c 3 t)) (ix4 z r u cc)
      = joint (m ((c : Thread nD τ).loc main_arg0)) (m ((c : Thread nD τ).loc main_arg1)) (m ((c : Thread nD τ).loc main_arg2)) (((cfg0.win 4).blk t).view.emb (ix4 z r u cc))
    rw [outBlock_emb, joint_apply]
    refine (Payload.pay2_apply (iblk m c 0 t) (iblk m c 2 t) (k0_pay1 (iblk m c 1 t) (iblk m c 3 t)) z r u cc).trans ?_
    exact congrArg₂ (· + ·) (encTerm_eq m c t r cc (iblk m c 0 t) (iblk m c 2 t) (fun k => encBlock_apply m c t 0 r k) (fun k => encHalfBlock_apply m c t k cc)) (Kept.fresh_eq m c t u cc)
  · rw [flushed4_B m c t h0, Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk m c 0 t) (iblk m c 1 t) (iblk m c 2 t) (iblk m c 3 t) (outsAt0 m c (t.val - 1) (Nat.lt_of_le_of_lt (Nat.sub_le _ _) t.isLt)).2]
    refine funext fun (y : S1x32x64x1024.Idx) => ?_
    obtain ⟨z, r, u, cc, rfl⟩ : ∃ (z : Fin 1) (r : Fin 32) (u : Fin 64) (cc : Fin 1024), y = ix4 z r u cc :=
      ⟨y 0, y 1, y 2, y 3, eq_ix4 y⟩
    show k0_pay2 (F := Ideal) (iblk m c 0 t) (iblk m c 2 t) (outsAt0 m c (t.val - 1) (Nat.lt_of_le_of_lt (Nat.sub_le _ _) t.isLt)).2 (ix4 z r u cc)
      = joint (m ((c : Thread nD τ).loc main_arg0)) (m ((c : Thread nD τ).loc main_arg1)) (m ((c : Thread nD τ).loc main_arg2)) (((cfg0.win 4).blk t).view.emb (ix4 z r u cc))
    rw [outBlock_emb, joint_apply]
    refine (Payload.pay2_apply (iblk m c 0 t) (iblk m c 2 t) (outsAt0 m c (t.val - 1) (Nat.lt_of_le_of_lt (Nat.sub_le _ _) t.isLt)).2 z r u cc).trans ?_
    refine congrArg₂ (· + ·) (encTerm_eq m c t r cc (iblk m c 0 t) (iblk m c 2 t) (fun k => encBlock_apply m c t 0 r k) (fun k => encHalfBlock_apply m c t k cc)) ?_
    refine (Kept.kept_eq m c (t.val - 1) (Nat.lt_of_le_of_lt (Nat.sub_le _ _) t.isLt) u cc).trans ?_
    have e : batchOf ⟨t.val - 1, Nat.lt_of_le_of_lt (Nat.sub_le _ _) t.isLt⟩ = batchOf t := Fin.ext (by
      show (t.val - 1) / 8 = t.val / 8
      omega)
    rw [e]

/-- An index of the result is in a point's block iff each coordinate is in the block's range on its axis. -/
theorem mem_blk (t : Fin cfg0.N) (i : S4x256x64x1024.Idx) :
    i ∈ ((cfg0.win 4).blk t).view.set ↔ ∀ a : Fin 4, win0_4.index t a * S1x32x64x1024.size a ≤ (i a).val ∧ (i a).val < win0_4.index t a * S1x32x64x1024.size a + S1x32x64x1024.size a := by
  show i ∈ ((View.whole main_v4).slice (win0_4.rect t)).set ↔ _
  rw [View.set_slice_whole, Rect.mem_set_unit]
  exact Iff.rfl

/-- The blocks tile the result: `(b, t, u, c)` lies in the block of point `8·b + t / 32`. -/
theorem cover (i : S4x256x64x1024.Idx) :
    ∃ t : Fin cfg0.N, (cfg0.win 4).flush t = true ∧ i ∈ ((cfg0.win 4).blk t).view.set := by
  have h0 : (i 0).val < 4 := (i 0).isLt
  have h1 : (i 1).val < 256 := (i 1).isLt
  have h2 : (i 2).val < 64 := (i 2).isLt
  have h3 : (i 3).val < 1024 := (i 3).isLt
  obtain ⟨t, ht⟩ : ∃ t : Fin cfg0.N, t.val = 8 * (i 0).val + (i 1).val / 32 :=
    ⟨⟨8 * (i 0).val + (i 1).val / 32, by rw [show cfg0.N = 32 from N_0]; omega⟩, rfl⟩
  refine ⟨t, flush0_4 t, ?_⟩
  rw [mem_blk]
  obtain ⟨-, -, -, -, -, -, -, -, -, -, e0, e1, e2, e3⟩ := idx_facts t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- The result array after the run is the joint network's function of the arguments. -/
theorem final (c : Dev nD) : (dats m 0 c).arrAt 4 cfg0.N = result m c :=
  (dats m 0 c).arrAt_eq_of_cover 4 (result m c) (fun t _ => flushed_eq m c t) cover

/-- The kernel's run: it terminates without a fault, the result array holds the joint network's function of the
    arguments, and the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.lean ====
/-
  The joint network of a transducer: for encoder states `e : [4, 256, 512]`, decoder states `d : [4, 64, 512]`
  and a weight `w : [1024, 1024]`, the result at `(b, t, u, c)` is

      (∑ k < 512, e[b, t, k] · w[c, k])  +  (∑ k < 512, d[b, u, k] · w[c, 512 + k]).

  The reference forms the two projections as contractions against the two column halves of `w` and adds them
  after broadcasting each over the axis it does not depend on.  The kernel transposes the two halves, then walks
  a grid of (batch entry, 32-row time tile): at an entry's first tile it computes that entry's decoder projection
  once and keeps it; at every tile it computes the tile's encoder projection and writes the broadcast sum of the
  two to the tile's block of the result.  On the extended reals a rounding of an operand to a narrower format is
  the identity and a product accumulated into zero is the plain sum, so both programs compute the function above;
  the only law used is that a finite sum may be re-indexed, which needs no finiteness of the entries.

  The three frames are the generated ones (the reference's is its generated run with the result dropped); the
  idealization rewrote nothing, so there is nothing to preserve; the value claim sets the kernel's run beside the
  reference's run, both posted at the same function of the arguments.
-/
import proofs.«103613_j69810398429358_2_alg».proof.Defs
import proofs.«103613_j69810398429358_2_alg».proof.Proof.Gen.Kernel
import proofs.«103613_j69810398429358_2_alg».proof.Proof.Gen.Kernel.Frame
import proofs.«103613_j69810398429358_2_alg».proof.Proof.Gen.KernelIdeal
import proofs.«103613_j69810398429358_2_alg».proof.Proof.Gen.KernelIdeal.Frame
import proofs.«103613_j69810398429358_2_alg».proof.Proof.Gen.KernelIdeal.Value
import proofs.«103613_j69810398429358_2_alg».proof.Proof.Gen.ReferenceIdeal
import proofs.«103613_j69810398429358_2_alg».proof.Proof.Gen.ReferenceIdeal.Run
import proofs.«103613_j69810398429358_2_alg».proof.Proof.Gen.ReferenceIdeal.Read
import proofs.«103613_j69810398429358_2_alg».proof.Proof.Gen.Pre_finite_inputs
import proofs.«103613_j69810398429358_2_alg».proof.Proof.RefJoint
import proofs.«103613_j69810398429358_2_alg».proof.Proof.Final
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the three arguments, the kernel's result array and the reference's result both end
    at the joint network's function of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefJoint.ref_eq_joint,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
